-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x16x512x512 : Shape := ⟨4, ![16, 16, 512, 512]⟩
abbrev S16x16x512x1 : Shape := ⟨4, ![16, 16, 512, 1]⟩
abbrev S16x16x1x1 : Shape := ⟨4, ![16, 16, 1, 1]⟩
abbrev S_ : Shape := ⟨0, ![]⟩

class Facts : Prop where
  bcast_S_S16x16x512x512 : S_.BroadcastsInDim S16x16x512x512 (![] : Fin 0 → Fin S16x16x512x512.rank)
  reducesTo_S16x16x512x512_S_d0_1_2_3 : S16x16x512x512.ReducesTo [0, 1, 2, 3] S_
  h_S_ : 0 < S_.numel
  bcast_S_S16x16x512x1 : S_.BroadcastsInDim S16x16x512x1 (![] : Fin 0 → Fin S16x16x512x1.rank)
  reducesTo_S16x16x512x1_S_d0_1_2_3 : S16x16x512x1.ReducesTo [0, 1, 2, 3] S_
  bcast_S_S16x16x1x1 : S_.BroadcastsInDim S16x16x1x1 (![] : Fin 0 → Fin S16x16x1x1.rank)
  reducesTo_S16x16x1x1_S_d0_1_2_3 : S16x16x1x1.ReducesTo [0, 1, 2, 3] S_

variable [Facts]

def fn_part1 {F : FTy → Type} [FloatOps F] (main_arg4 : FVec F S16x16x1x1 .f32) (main_v13 : IVec S_ 1) (main_v16 : IVec S16x16x1x1 1) : IVec S_ 1 :=
  let main_c_5 : IVec S_ 1 := constantI S_ 1 1#1
  let main_v17 : IVec S_ 1 := (fun x v => Host.reduce IntOp.andi x v reducesTo_S16x16x1x1_S_d0_1_2_3 h_S_) main_v16 main_c_5
  let main_v18 : IVec S_ 1 := andi main_v13 main_v17
  let main_v19 : FVec F S16x16x1x1 .f32 := Host.absf main_arg4
  let main_cst_6 : FVec F S_ .f32 := constant S_ .f32 0x7F800000#32
  let main_v20 : FVec F S16x16x1x1 .f32 := broadcastInDim S16x16x1x1 ![] bcast_S_S16x16x1x1 main_cst_6
  let main_v21 : IVec S16x16x1x1 1 := cmpf .olt main_v19 main_v20
  let main_c_7 : IVec S_ 1 := constantI S_ 1 1#1
  let main_v22 : IVec S_ 1 := (fun x v => Host.reduce IntOp.andi x v reducesTo_S16x16x1x1_S_d0_1_2_3 h_S_) main_v21 main_c_7
  let main_v23 : IVec S_ 1 := andi main_v18 main_v22
  main_v23

def fn {F : FTy → Type} [FloatOps F] (main_arg0 : FVec F S16x16x512x512 .f32) (main_arg1 : FVec F S16x16x512x1 .f32) (main_arg2 : FVec F S16x16x512x1 .f32) (main_arg3 : FVec F S16x16x1x1 .f32) (main_arg4 : FVec F S16x16x1x1 .f32) : IVec S_ 1 :=
  let main_v0 : FVec F S16x16x512x512 .f32 := Host.absf main_arg0
  let main_cst : FVec F S_ .f32 := constant S_ .f32 0x7F800000#32
  let main_v1 : FVec F S16x16x512x512 .f32 := broadcastInDim S16x16x512x512 ![] bcast_S_S16x16x512x512 main_cst
  let main_v2 : IVec S16x16x512x512 1 := cmpf .olt main_v0 main_v1
  let main_c : IVec S_ 1 := constantI S_ 1 1#1
  let main_v3 : IVec S_ 1 := (fun x v => Host.reduce IntOp.andi x v reducesTo_S16x16x512x512_S_d0_1_2_3 h_S_) main_v2 main_c
  let main_v4 : FVec F S16x16x512x1 .f32 := Host.absf main_arg1
  let main_cst_0 : FVec F S_ .f32 := constant S_ .f32 0x7F800000#32
  let main_v5 : FVec F S16x16x512x1 .f32 := broadcastInDim S16x16x512x1 ![] bcast_S_S16x16x512x1 main_cst_0
  let main_v6 : IVec S16x16x512x1 1 := cmpf .olt main_v4 main_v5
  let main_c_1 : IVec S_ 1 := constantI S_ 1 1#1
  let main_v7 : IVec S_ 1 := (fun x v => Host.reduce IntOp.andi x v reducesTo_S16x16x512x1_S_d0_1_2_3 h_S_) main_v6 main_c_1
  let main_v8 : IVec S_ 1 := andi main_v3 main_v7
  let main_v9 : FVec F S16x16x512x1 .f32 := Host.absf main_arg2
  let main_cst_2 : FVec F S_ .f32 := constant S_ .f32 0x7F800000#32
  let main_v10 : FVec F S16x16x512x1 .f32 := broadcastInDim S16x16x512x1 ![] bcast_S_S16x16x512x1 main_cst_2
  let main_v11 : IVec S16x16x512x1 1 := cmpf .olt main_v9 main_v10
  let main_c_3 : IVec S_ 1 := constantI S_ 1 1#1
  let main_v12 : IVec S_ 1 := (fun x v => Host.reduce IntOp.andi x v reducesTo_S16x16x512x1_S_d0_1_2_3 h_S_) main_v11 main_c_3
  let main_v13 : IVec S_ 1 := andi main_v8 main_v12
  let main_v14 : FVec F S16x16x1x1 .f32 := Host.absf main_arg3
  let main_cst_4 : FVec F S_ .f32 := constant S_ .f32 0x7F800000#32
  let main_v15 : FVec F S16x16x1x1 .f32 := broadcastInDim S16x16x1x1 ![] bcast_S_S16x16x1x1 main_cst_4
  let main_v16 : IVec S16x16x1x1 1 := cmpf .olt main_v14 main_v15
  fn_part1 (F := F) main_arg4 main_v13 main_v16
-- ==== Kernel.lean ====
abbrev S16x16x512x512 : Shape := ⟨4, ![16, 16, 512, 512]⟩
abbrev S16x16x512x1 : Shape := ⟨4, ![16, 16, 512, 1]⟩
abbrev S16x16x1x1 : Shape := ⟨4, ![16, 16, 1, 1]⟩
abbrev S256x512x512 : Shape := ⟨3, ![256, 512, 512]⟩
abbrev S256x512x1 : Shape := ⟨3, ![256, 512, 1]⟩
abbrev S256x1x512 : Shape := ⟨3, ![256, 1, 512]⟩
abbrev S256x1x1 : Shape := ⟨3, ![256, 1, 1]⟩
abbrev S4x512x512 : Shape := ⟨3, ![4, 512, 512]⟩
abbrev S4x1x512 : Shape := ⟨3, ![4, 1, 512]⟩
abbrev S4x512x1 : Shape := ⟨3, ![4, 512, 1]⟩
abbrev S4x1x1 : Shape := ⟨3, ![4, 1, 1]⟩
abbrev S4x512 : Shape := ⟨2, ![4, 512]⟩

abbrev nBuf : Space → Nat
  | .hbm => 13
  | .vmem => 12
  | .smem => 0
  | _ => 0

abbrev bufTy : (tb : Table) → Fin (tcTables nBuf tb) → BufTy
  | .hbm, ⟨0, _⟩ => ⟨S16x16x512x512, .f32⟩
  | .hbm, ⟨1, _⟩ => ⟨S16x16x512x1, .f32⟩
  | .hbm, ⟨2, _⟩ => ⟨S16x16x512x1, .f32⟩
  | .hbm, ⟨3, _⟩ => ⟨S16x16x1x1, .f32⟩
  | .hbm, ⟨4, _⟩ => ⟨S16x16x1x1, .f32⟩
  | .hbm, ⟨5, _⟩ => ⟨S256x512x512, .f32⟩
  | .hbm, ⟨6, _⟩ => ⟨S256x512x1, .f32⟩
  | .hbm, ⟨7, _⟩ => ⟨S256x1x512, .f32⟩
  | .hbm, ⟨8, _⟩ => ⟨S256x512x1, .f32⟩
  | .hbm, ⟨9, _⟩ => ⟨S256x1x1, .f32⟩
  | .hbm, ⟨10, _⟩ => ⟨S256x1x1, .f32⟩
  | .hbm, ⟨11, _⟩ => ⟨S256x512x512, .f32⟩
  | .hbm, ⟨12, _⟩ => ⟨S16x16x512x512, .f32⟩
  | .local _ .vmem, ⟨0, _⟩ => ⟨S4x512x512, .f32⟩
  | .local _ .vmem, ⟨1, _⟩ => ⟨S4x512x512, .f32⟩
  | .local _ .vmem, ⟨2, _⟩ => ⟨S4x1x512, .f32⟩
  | .local _ .vmem, ⟨3, _⟩ => ⟨S4x1x512, .f32⟩
  | .local _ .vmem, ⟨4, _⟩ => ⟨S4x512x1, .f32⟩
  | .local _ .vmem, ⟨5, _⟩ => ⟨S4x512x1, .f32⟩
  | .local _ .vmem, ⟨6, _⟩ => ⟨S4x1x1, .f32⟩
  | .local _ .vmem, ⟨7, _⟩ => ⟨S4x1x1, .f32⟩
  | .local _ .vmem, ⟨8, _⟩ => ⟨S4x1x1, .f32⟩
  | .local _ .vmem, ⟨9, _⟩ => ⟨S4x1x1, .f32⟩
  | .local _ .vmem, ⟨10, _⟩ => ⟨S4x512x512, .f32⟩
  | .local _ .vmem, ⟨11, _⟩ => ⟨S4x512x512, .f32⟩
  | _, _ => ⟨S16x16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16x16x512x512_S256x512x512 : S16x16x512x512.ShapeCasts S256x512x512
  shapeCasts_S16x16x512x1_S256x512x1 : S16x16x512x1.ShapeCasts S256x512x1
  transposes_S256x512x1_S256x1x512_0_2_1 : S256x512x1.Transposes [0, 2, 1] S256x1x512
  shapeCasts_S16x16x1x1_S256x1x1 : S16x16x1x1.ShapeCasts S256x1x1
  inb_S4x512x512_S4x512x512_0_0_0 : ∀ a, (![0, 0, 0] : Fin 3 → Nat) a + S4x512x512.size a ≤ S4x512x512.size a
  h_S4x512x512 : 0 < S4x512x512.numel
  shapeCasts_S4x512x512_S4x512x512 : S4x512x512.ShapeCasts S4x512x512
  inb_S4x1x512_S4x1x512_0_0_0 : ∀ a, (![0, 0, 0] : Fin 3 → Nat) a + S4x1x512.size a ≤ S4x1x512.size a
  h_S4x1x512 : 0 < S4x1x512.numel
  shapeCasts_S4x1x512_S4x1x512 : S4x1x512.ShapeCasts S4x1x512
  inb_S4x512x1_S4x512x1_0_0_0 : ∀ a, (![0, 0, 0] : Fin 3 → Nat) a + S4x512x1.size a ≤ S4x512x1.size a
  h_S4x512x1 : 0 < S4x512x1.numel
  shapeCasts_S4x512x1_S4x512x1 : S4x512x1.ShapeCasts S4x512x1
  inb_S4x1x1_S4x1x1_0_0_0 : ∀ a, (![0, 0, 0] : Fin 3 → Nat) a + S4x1x1.size a ≤ S4x1x1.size a
  h_S4x1x1 : 0 < S4x1x1.numel
  shapeCasts_S4x1x1_S4x1x1 : S4x1x1.ShapeCasts S4x1x1
  broadcasts_S4x1x512_S4x512x512 : S4x1x512.Broadcasts S4x512x512
  reduces_S4x512x512_S4x512 : S4x512x512.Reduces [2] S4x512
  shapeCasts_S4x512_S4x512x1 : S4x512.ShapeCasts S4x512x1
  broadcasts_S4x512x1_S4x512x512 : S4x512x1.Broadcasts S4x512x512
  broadcasts_S4x1x1_S4x512x512 : S4x1x1.Broadcasts S4x512x512
  shapeCasts_S256x512x512_S16x16x512x512 : S256x512x512.ShapeCasts S16x16x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x512.size a ≤ S256x512x512.size a
  hwx0_0 : ∀ i : grid0.Coords, EltTy.bits .f32 = 32 ∨ (Rect.block (s := S256x512x512) S4x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1x512.size a ≤ S256x1x512.size a
  hwx0_1 : ∀ i : grid0.Coords, EltTy.bits .f32 = 32 ∨ (Rect.block (s := S256x1x512) S4x1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512x1.size a ≤ S256x512x1.size a
  hwx0_2 : ∀ i : grid0.Coords, EltTy.bits .f32 = 32 ∨ (Rect.block (s := S256x512x1) S4x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1x1.size a ≤ S256x1x1.size a
  hwx0_3 : ∀ i : grid0.Coords, EltTy.bits .f32 = 32 ∨ (Rect.block (s := S256x1x1) S4x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x1x1.size a ≤ S256x1x1.size a
  hwx0_4 : ∀ i : grid0.Coords, EltTy.bits .f32 = 32 ∨ (Rect.block (s := S256x1x1) S4x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x512x512.size a ≤ S256x512x512.size a
  hwx0_5 : ∀ i : grid0.Coords, EltTy.bits .f32 = 32 ∨ (Rect.block (s := S256x512x512) S4x512x512.size (cc0_transform_5 i) (hinb0_5 i)).WholeWords (EltTy.packing .f32)

variable [Facts₀]

abbrev win0_0 : Pipeline.Window sig grid0 :=
  Pipeline.Window.ofSpec (Memref.whole main_v0) S4x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4x1x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S4x1x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S4x512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where
  halias0_5 : Pipeline.Aliased win0 0 5

variable [Facts]
-- ==== ReferenceIdeal.lean ====
abbrev S16x16x512x512 : Shape := ⟨4, ![16, 16, 512, 512]⟩
abbrev S16x16x512x1 : Shape := ⟨4, ![16, 16, 512, 1]⟩
abbrev S16x16x1x1 : Shape := ⟨4, ![16, 16, 1, 1]⟩
abbrev S16x16x1x512 : Shape := ⟨4, ![16, 16, 1, 512]⟩

abbrev nBuf : Space → Nat
  | .hbm => 16
  | .vmem => 0
  | .smem => 0
  | _ => 0

abbrev bufTy : (tb : Table) → Fin (tcTables nBuf tb) → BufTy
  | .hbm, ⟨0, _⟩ => ⟨S16x16x512x512, .f32⟩
  | .hbm, ⟨1, _⟩ => ⟨S16x16x512x1, .f32⟩
  | .hbm, ⟨2, _⟩ => ⟨S16x16x512x1, .f32⟩
  | .hbm, ⟨3, _⟩ => ⟨S16x16x1x1, .f32⟩
  | .hbm, ⟨4, _⟩ => ⟨S16x16x1x1, .f32⟩
  | .hbm, ⟨5, _⟩ => ⟨S16x16x512x1, .f32⟩
  | .hbm, ⟨6, _⟩ => ⟨S16x16x512x1, .f32⟩
  | .hbm, ⟨7, _⟩ => ⟨S16x16x1x512, .f32⟩
  | .hbm, ⟨8, _⟩ => ⟨S16x16x512x512, .f32⟩
  | .hbm, ⟨9, _⟩ => ⟨S16x16x512x512, .f32⟩
  | .hbm, ⟨10, _⟩ => ⟨S16x16x512x512, .f32⟩
  | .hbm, ⟨11, _⟩ => ⟨S16x16x512x512, .f32⟩
  | .hbm, ⟨12, _⟩ => ⟨S16x16x512x512, .f32⟩
  | .hbm, ⟨13, _⟩ => ⟨S16x16x512x512, .f32⟩
  | .hbm, ⟨14, _⟩ => ⟨S16x16x512x512, .f32⟩
  | .hbm, ⟨15, _⟩ => ⟨S16x16x512x512, .f32⟩
  | _, _ => ⟨S16x16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  transposes_S16x16x512x1_S16x16x1x512_0_1_3_2 : S16x16x512x1.Transposes [0, 1, 3, 2] S16x16x1x512
  bcast_S16x16x512x1_S16x16x512x512_0_1_2_3 : S16x16x512x1.BroadcastsInDim S16x16x512x512 (![0, 1, 2, 3] : Fin 4 → Fin S16x16x512x512.rank)
  bcast_S16x16x1x512_S16x16x512x512_0_1_2_3 : S16x16x1x512.BroadcastsInDim S16x16x512x512 (![0, 1, 2, 3] : Fin 4 → Fin S16x16x512x512.rank)
  bcast_S16x16x1x1_S16x16x512x512_0_1_2_3 : S16x16x1x1.BroadcastsInDim S16x16x512x512 (![0, 1, 2, 3] : Fin 4 → Fin S16x16x512x512.rank)
  dot_S16x16x512x512_S16x16x512x1_S16x16x512x1_3_2_2_3_01_01_wf : DotDims.WF S16x16x512x512 S16x16x512x1 S16x16x512x1 [3] [2] [2] [3] [0, 1] [0, 1]

variable [Facts₀]

def dot_S16x16x512x512_S16x16x512x1_S16x16x512x1_3_2_2_3_01_01 : DotDims S16x16x512x512 S16x16x512x1 S16x16x512x1 where
  lhsContracting := [3]
  rhsContracting := [2]
  lhsNonContracting := [2]
  rhsNonContracting := [3]
  lhsBatch := [0, 1]
  rhsBatch := [0, 1]
  wf := dot_S16x16x512x512_S16x16x512x1_S16x16x512x1_3_2_2_3_01_01_wf

class Facts : Prop extends Facts₀ where

variable [Facts]
-- ==== Proof.LibStack.lean ====
/-
  A stack of matrices — an array of shape [m, a, b] — under the layout operations a batched kernel applies to it, each
  read at an index written by its coordinates `ix3 k i j` (batch, row, column).

  • A KEEPDIMS BROADCAST. Three operands of fewer entries are spread over the stack: one row per batch, [m, 1, b], read
    at (k, 0, j); one column per batch, [m, a, 1], read at (k, i, 0); one scalar per batch, [m, 1, 1], read at (k, 0, 0).
    In each the coordinate on a unit axis of the operand is 0 and the others are the result's.
  • A KEEPDIMS CAST. A matrix [m, a] viewed as a stack of columns [m, a, 1] has the same row-major position
    (k·a + i)·1 + 0 = k·a + i, so at (k, i, 0) it reads (k, i).
  • TWO LEADING AXES MERGED OR SPLIT. An array [p, q, a, b] viewed as [n, a, b] with n = p·q keeps row-major positions:
    ((s·q + t)·a + i)·b + j on both sides when the merged batch coordinate is g = s·q + t. So the merged array at
    (g, i, j) is the operand at (s, t, i, j), and conversely.
  • A LANE SUM. Over the exact extended reals, the sum of a stack along its last axis, read at (k, i), is the finite sum
    over j of the entries (k, i, j): the axis put back at position 2 of the index.
-/
import Idealize.ShloMosaic.Lib.Pipeline.Value
import Idealize.ShloMosaic.Lib.ValueIdx
import Idealize.ShloMosaic.PureOps.Ideal.Laws

namespace Cert.LibStack

open Idealize.ShloMosaic Idealize.ShloMosaic.ValueIdx

variable {α : Type}

/-! ## Keepdims broadcasts over a stack -/

/-- One row per batch, `[m, 1, b]`, broadcast to `[m, a, b]`, reads at `(k, i, j)` the operand at `(k, 0, j)`. -/
theorem broadcastTo_m1b_mab_apply {m a b : ℕ} (v : (⟨3, ![m, 1, b]⟩ : Shape).Idx → α)
    (h : (⟨3, ![m, 1, b]⟩ : Shape).Broadcasts ⟨3, ![m, a, b]⟩) (k : Fin m) (i : Fin a) (j : Fin b) :
    broadcastTo ⟨3, ![m, a, b]⟩ v h (ix3 k i j) = v (ix3 k (0 : Fin 1) j) := by
  refine broadcastTo_apply v h (ix3 k i j) (ix3 k (0 : Fin 1) j) fun ax => ?_
  match ax with
  | ⟨0, _⟩ =>
    show k.val = if m = 1 then 0 else k.val
    split
    · have := k.isLt; omega
    · rfl
  | ⟨1, _⟩ => rfl
  | ⟨2, _⟩ =>
    show j.val = if b = 1 then 0 else j.val
    split
    · have := j.isLt; omega
    · rfl

/-- One column per batch, `[m, a, 1]`, broadcast to `[m, a, b]`, reads at `(k, i, j)` the operand at `(k, i, 0)`. -/
theorem broadcastTo_ma1_mab_apply {m a b : ℕ} (v : (⟨3, ![m, a, 1]⟩ : Shape).Idx → α)
    (h : (⟨3, ![m, a, 1]⟩ : Shape).Broadcasts ⟨3, ![m, a, b]⟩) (k : Fin m) (i : Fin a) (j : Fin b) :
    broadcastTo ⟨3, ![m, a, b]⟩ v h (ix3 k i j) = v (ix3 k i (0 : Fin 1)) := by
  refine broadcastTo_apply v h (ix3 k i j) (ix3 k i (0 : Fin 1)) fun ax => ?_
  match ax with
  | ⟨0, _⟩ =>
    show k.val = if m = 1 then 0 else k.val
    split
    · have := k.isLt; omega
    · rfl
  | ⟨1, _⟩ =>
    show i.val = if a = 1 then 0 else i.val
    split
    · have := i.isLt; omega
    · rfl
  | ⟨2, _⟩ => rfl

/-- One scalar per batch, `[m, 1, 1]`, broadcast to `[m, a, b]`, reads at `(k, i, j)` the operand at `(k, 0, 0)`. -/
theorem broadcastTo_m11_mab_apply {m a b : ℕ} (v : (⟨3, ![m, 1, 1]⟩ : Shape).Idx → α)
    (h : (⟨3, ![m, 1, 1]⟩ : Shape).Broadcasts ⟨3, ![m, a, b]⟩) (k : Fin m) (i : Fin a) (j : Fin b) :
    broadcastTo ⟨3, ![m, a, b]⟩ v h (ix3 k i j) = v (ix3 k (0 : Fin 1) (0 : Fin 1)) := by
  refine broadcastTo_apply v h (ix3 k i j) (ix3 k (0 : Fin 1) (0 : Fin 1)) fun ax => ?_
  match ax with
  | ⟨0, _⟩ =>
    show k.val = if m = 1 then 0 else k.val
    split
    · have := k.isLt; omega
    · rfl
  | ⟨1, _⟩ => rfl
  | ⟨2, _⟩ => rfl

/-! ## The keepdims cast of a matrix to a stack of columns -/

/-- An `[m, a]` matrix cast to `[m, a, 1]` reads, at `(k, i, u)`, the operand at `(k, i)`. -/
theorem shapeCast_ma_ma1_apply {m a : ℕ} (x : (⟨2, ![m, a]⟩ : Shape).Idx → α)
    (h : (⟨2, ![m, a]⟩ : Shape).ShapeCasts ⟨3, ![m, a, 1]⟩) (k : Fin m) (i : Fin a) (u : Fin 1) :
    shapeCast ⟨3, ![m, a, 1]⟩ x h (ix3 k i u) = x (ix2 k i) :=
  shapeCast_apply x h _ _ (by
    have hu : u.val = 0 := by omega
    rw [Shape.rowMajor_val_three, Shape.rowMajor_val_two]
    show k.val * a + i.val = (k.val * a + i.val) * 1 + u.val
    rw [hu, Nat.mul_one, Nat.add_zero])

/-! ## Two leading axes merged into one, and one split into two -/

/-- A `[p, q, a, b]` array cast to `[n, a, b]` reads, at `(g, i, j)` with `g = s·q + t`, the operand at `(s, t, i, j)`. -/
theorem shapeCast_pqab_nab_apply {p q n a b : ℕ} (x : (⟨4, ![p, q, a, b]⟩ : Shape).Idx → α)
    (h : (⟨4, ![p, q, a, b]⟩ : Shape).ShapeCasts ⟨3, ![n, a, b]⟩) (g : Fin n) (s : Fin p) (t : Fin q)
    (hg : g.val = s.val * q + t.val) (i : Fin a) (j : Fin b) :
    shapeCast ⟨3, ![n, a, b]⟩ x h (ix3 g i j) = x (ix4 s t i j) :=
  shapeCast_apply x h _ _ (by
    rw [Shape.rowMajor_val_four, Shape.rowMajor_val_three]
    show ((s.val * q + t.val) * a + i.val) * b + j.val = (g.val * a + i.val) * b + j.val
    rw [hg])

/-- An `[n, a, b]` array cast to `[p, q, a, b]` reads, at `(s, t, i, j)`, the operand at `(g, i, j)` with `g = s·q + t`. -/
theorem shapeCast_nab_pqab_apply {p q n a b : ℕ} (x : (⟨3, ![n, a, b]⟩ : Shape).Idx → α)
    (h : (⟨3, ![n, a, b]⟩ : Shape).ShapeCasts ⟨4, ![p, q, a, b]⟩) (g : Fin n) (s : Fin p) (t : Fin q)
    (hg : g.val = s.val * q + t.val) (i : Fin a) (j : Fin b) :
    shapeCast ⟨4, ![p, q, a, b]⟩ x h (ix4 s t i j) = x (ix3 g i j) :=
  shapeCast_apply x h _ _ (by
    rw [Shape.rowMajor_val_four, Shape.rowMajor_val_three]
    show (g.val * a + i.val) * b + j.val = ((s.val * q + t.val) * a + i.val) * b + j.val
    rw [hg])

/-! ## A lane sum over the exact extended reals -/

/-- The sum of a stack `[m, a, b]` along its last axis, read at `(k, i)`, is `∑ j, src (k, i, j)`. -/
theorem multiReduction_add_lane_apply {φ : FTy} {m a b : ℕ} (src : FVec Ideal ⟨3, ![m, a, b]⟩ φ) (acc : BitVec φ.bits)
    (h : (⟨3, ![m, a, b]⟩ : Shape).Reduces [2] ⟨2, ![m, a]⟩) (hφ : FKind.Formats φ)
    (hacc : acc = FKind.add.neutral φ hφ) (k : Fin m) (i : Fin a) :
    multiReduction .add [2] ⟨2, ![m, a]⟩ src acc h hφ hacc (ix2 k i) = ∑ j : Fin b, src (ix3 k i j) := by
  refine (Ideal.multiReduction_add_single src acc h hφ hacc (ix2 k i)).trans ?_
  refine Finset.sum_congr rfl fun j _ => congrArg src (funext fun ax => ?_)
  match ax with
  | ⟨0, _⟩ => rfl
  | ⟨1, _⟩ => rfl
  | ⟨2, _⟩ => rfl

end Cert.LibStack
-- ==== Proof.Spec.lean ====
/-
  The fast-weight update, as a function on arrays of extended reals.

  For one (batch, head) pair the state is a 512 × 512 matrix M, the key a vector k, the value a vector v, and the decay α
  and the step η are scalars. The update predicts p = M k (entry r: ∑ₖ M[r, k] · k[k]), takes the error e = p − v, and
  returns

      M'[r, q]  =  M[r, q] · α  +  η · ( e[r] · k[q] ),

  a decay of the old state plus a rank-one correction. Nothing is distributed or cancelled: the expression is read as
  written, on the extended reals, with the one finite sum.

  Two layouts of the same formula are stated. `stackAt` is over a STACK of n pairs, arrays [n, 512, 512] (state),
  [n, 1, 512] (the key as a row), [n, 512, 1] (the value as a column) and [n, 1, 1] (the scalars): the layout a batched
  kernel works in. `gridAt` is over the [16, 16, …] arrays of the problem itself, the key a column [16, 16, 512, 1].
  They are the same number when stack entry g = b·16 + h holds pair (b, h) and the key's row is its column transposed.
-/
import Idealize.ShloMosaic.PureOps.Ideal
import Idealize.ShloMosaic.Lib.ValueIdx

noncomputable section

namespace Cert.Update

open Idealize.ShloMosaic Idealize.ShloMosaic.ValueIdx

/-- The updated state of pair `g` of a stack at row `r`, column `q`: decay plus rank-one correction. -/
def stackAt {n : ℕ} (M : (⟨3, ![n, 512, 512]⟩ : Shape).Idx → EReal) (Kt : (⟨3, ![n, 1, 512]⟩ : Shape).Idx → EReal)
    (V : (⟨3, ![n, 512, 1]⟩ : Shape).Idx → EReal) (A E : (⟨3, ![n, 1, 1]⟩ : Shape).Idx → EReal)
    (g : Fin n) (r q : Fin 512) : EReal :=
  M (ix3 g r q) * A (ix3 g (0 : Fin 1) (0 : Fin 1))
    + E (ix3 g (0 : Fin 1) (0 : Fin 1))
      * (((∑ k : Fin 512, M (ix3 g r k) * Kt (ix3 g (0 : Fin 1) k)) - V (ix3 g r (0 : Fin 1))) * Kt (ix3 g (0 : Fin 1) q))

/-- The updated stack as an array. -/
def stack {n : ℕ} (M : (⟨3, ![n, 512, 512]⟩ : Shape).Idx → EReal) (Kt : (⟨3, ![n, 1, 512]⟩ : Shape).Idx → EReal)
    (V : (⟨3, ![n, 512, 1]⟩ : Shape).Idx → EReal) (A E : (⟨3, ![n, 1, 1]⟩ : Shape).Idx → EReal) :
    (⟨3, ![n, 512, 512]⟩ : Shape).Idx → EReal :=
  fun i => stackAt M Kt V A E (i 0) (i 1) (i 2)

theorem stack_ix3 {n : ℕ} (M : (⟨3, ![n, 512, 512]⟩ : Shape).Idx → EReal) (Kt : (⟨3, ![n, 1, 512]⟩ : Shape).Idx → EReal)
    (V : (⟨3, ![n, 512, 1]⟩ : Shape).Idx → EReal) (A E : (⟨3, ![n, 1, 1]⟩ : Shape).Idx → EReal)
    (g : Fin n) (r q : Fin 512) : stack M Kt V A E (ix3 g r q) = stackAt M Kt V A E g r q := rfl

/-- The updated state of pair `(b, h)` at row `r`, column `q`, over the problem's own arrays. -/
def gridAt (M : (⟨4, ![16, 16, 512, 512]⟩ : Shape).Idx → EReal) (K V : (⟨4, ![16, 16, 512, 1]⟩ : Shape).Idx → EReal)
    (A E : (⟨4, ![16, 16, 1, 1]⟩ : Shape).Idx → EReal) (b h : Fin 16) (r q : Fin 512) : EReal :=
  M (ix4 b h r q) * A (ix4 b h (0 : Fin 1) (0 : Fin 1))
    + E (ix4 b h (0 : Fin 1) (0 : Fin 1))
      * (((∑ k : Fin 512, M (ix4 b h r k) * K (ix4 b h k (0 : Fin 1))) - V (ix4 b h r (0 : Fin 1))) * K (ix4 b h q (0 : Fin 1)))

/-- The updated state as an array. -/
def grid (M : (⟨4, ![16, 16, 512, 512]⟩ : Shape).Idx → EReal) (K V : (⟨4, ![16, 16, 512, 1]⟩ : Shape).Idx → EReal)
    (A E : (⟨4, ![16, 16, 1, 1]⟩ : Shape).Idx → EReal) : (⟨4, ![16, 16, 512, 512]⟩ : Shape).Idx → EReal :=
  fun i => gridAt M K V A E (i 0) (i 1) (i 2) (i 3)

theorem grid_ix4 (M : (⟨4, ![16, 16, 512, 512]⟩ : Shape).Idx → EReal) (K V : (⟨4, ![16, 16, 512, 1]⟩ : Shape).Idx → EReal)
    (A E : (⟨4, ![16, 16, 1, 1]⟩ : Shape).Idx → EReal) (b h : Fin 16) (r q : Fin 512) :
    grid M K V A E (ix4 b h r q) = gridAt M K V A E b h r q := rfl

end Cert.Update

end
-- ==== Proof.Body.lean ====
/-
  What the kernel body stores, read at an index.

  The body loads a stack of 4 states and their keys (as rows), values (as columns), decays and steps, and stores one
  value: the key row spread over the rows, multiplied into the state and summed along each row (the prediction), the value
  column subtracted (the error), the error column spread over the columns and multiplied by the key row spread over the
  rows (the rank-one term), scaled by the step; plus the state times the decay. Reading each spread at an index — a row
  per pair at (g, 0, q), a column per pair at (g, r, 0), a scalar per pair at (g, 0, 0) — and the row sum as a finite
  sum, the stored value at (g, r, q) is the update `stackAt` of the loaded blocks. The sum starts from the neutral
  element of addition, so no term is added to it.
-/
import proofs.«130724_j8589934763_2_alg».proof.Proof.Gen.KernelIdeal.Skeleton
import proofs.«130724_j8589934763_2_alg».proof.Proof.LibStack
import proofs.«130724_j8589934763_2_alg».proof.Proof.Spec

noncomputable section

namespace Cert.KernelIdeal.Body

open Idealize.ShloMosaic Idealize.ShloMosaic.ValueIdx Cert.KernelIdeal Cert.KernelIdeal.Gen Cert.LibStack Cert.Update

/-- The stored value at pair `g`, row `r`, column `q` is the update of the loaded blocks there. -/
theorem pay_apply (x0 : Vec Ideal S4x512x512 .f32) (x1 : Vec Ideal S4x1x512 .f32) (x2 : Vec Ideal S4x512x1 .f32)
    (x3 x4 : Vec Ideal S4x1x1 .f32) (g : Fin 4) (r q : Fin 512) :
    k0_pay1 (F := Ideal) x0 x1 x2 x3 x4 (ix3 g r q) = stackAt x0 x1 x2 x3 x4 g r q := by
  unfold k0_pay1 stackAt
  simp only [shapeCast_self]
  rw [addf_apply, mulf_apply, mulf_apply, mulf_apply]
  rw [broadcastTo_m11_mab_apply x3, broadcastTo_m11_mab_apply x4, broadcastTo_m1b_mab_apply x1,
    broadcastTo_ma1_mab_apply, subf_apply, shapeCast_ma_ma1_apply]
  refine congrArg (fun s => x0 (ix3 g r q) * x3 (ix3 g 0 0) + x4 (ix3 g 0 0) * ((s - x2 (ix3 g r 0)) * x1 (ix3 g 0 q))) ?_
  refine (multiReduction_add_lane_apply _ _ _ _ _ g r).trans ?_
  refine Finset.sum_congr rfl fun k _ => ?_
  rw [mulf_apply, broadcastTo_m1b_mab_apply x1]

end Cert.KernelIdeal.Body

end
-- ==== Proof.Blocks.lean ====
/-
  From the blocks the grid points write to the whole output array.

  The grid has 64 points. Point t works on stack entries 4t … 4t + 3: every window's block index is (t, 0, 0), so entry g
  of a block is entry 4t + g of its array, rows and columns unchanged. The body's stored value at (g, r, q) is the update of
  the loaded blocks (the body lemma), and each loaded block entry is the array entry at the shifted stack coordinate, so what
  point t writes back is block t of ONE function of the whole arrays: the update `stack` of the five arrays as the region
  finds them. Every stack entry e lies in the block of the point e / 4, and every point writes its block back, so the blocks
  cover the output array, which therefore ends holding that function.
-/
import proofs.«130724_j8589934763_2_alg».proof.Proof.Gen.KernelIdeal.Frame
import proofs.«130724_j8589934763_2_alg».proof.Proof.Body

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Body Cert.Update

variable (m : (ℓ : Loc nD τ sig) → Buf (Elt Ideal) ℓ)

theorem zeros : (![0, 0, 0] : Fin 3 → Nat) = fun _ => 0 := funext fun a => by fin_cases a <;> rfl

/-- Entry `g` of point `T`'s block is stack entry `4T + g`. -/
def entry (T : Fin cfg0.N) (g : Fin 4) : Fin 256 := ⟨T.val * 4 + g.val, by have h : T.val < 64 := T.isLt; omega⟩

/-- The update of blocks that are the arrays read at the shifted stack coordinate is the arrays' update there. -/
theorem pay_of_blocks (M : (⟨3, ![256, 512, 512]⟩ : Shape).Idx → EReal) (Kt : (⟨3, ![256, 1, 512]⟩ : Shape).Idx → EReal)
    (V : (⟨3, ![256, 512, 1]⟩ : Shape).Idx → EReal) (A E : (⟨3, ![256, 1, 1]⟩ : Shape).Idx → EReal)
    (x0 : Vec Ideal S4x512x512 .f32) (x1 : Vec Ideal S4x1x512 .f32) (x2 : Vec Ideal S4x512x1 .f32)
    (x3 x4 : Vec Ideal S4x1x1 .f32) (T : Fin cfg0.N)
    (h0 : ∀ (g : Fin 4) (r q : Fin 512), x0 (ix3 g r q) = M (ix3 (entry T g) r q))
    (h1 : ∀ (g : Fin 4) (u : Fin 1) (q : Fin 512), x1 (ix3 g u q) = Kt (ix3 (entry T g) u q))
    (h2 : ∀ (g : Fin 4) (r : Fin 512) (u : Fin 1), x2 (ix3 g r u) = V (ix3 (entry T g) r u))
    (h3 : ∀ (g : Fin 4) (u v : Fin 1), x3 (ix3 g u v) = A (ix3 (entry T g) u v))
    (h4 : ∀ (g : Fin 4) (u v : Fin 1), x4 (ix3 g u v) = E (ix3 (entry T g) u v))
    (g : Fin 4) (r q : Fin 512) :
    k0_pay1 (F := Ideal) x0 x1 x2 x3 x4 (ix3 g r q) = stackAt M Kt V A E (entry T g) r q := by
  rw [pay_apply]
  unfold stackAt
  simp only [h0, h1, h2, h3, h4]

/-- Every window's block index at point `t` is `(t, 0, 0)`: decided over the 64 points. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0) :=
  (by decide +kernel : ∀ t : Fin grid0.N, _)

/-- The state's block at point `t`, read at `(g, r, q)`, is the state array at `(4t + g, r, q)`. -/
theorem blk0 (c : Dev nD) (t : Fin cfg0.N) (g : Fin 4) (r q : Fin 512) :
    iblk m c 0 t (ix3 g r q) = V m c main_v0 (ix3 (entry t g) r q) := by
  obtain ⟨⟨e0, e1, e2⟩, -⟩ := idx_facts t
  show V m c main_v0 (((cfg0.win 0).blk t).view.emb (ix3 g r q)) = V m c main_v0 (ix3 (entry t g) r q)
  refine congrArg _ (funext fun a => Fin.ext ?_)
  match a with
  | ⟨0, _⟩ => show win0_0.index t (0 : Fin 3) * 4 + 1 * g.val = t.val * 4 + g.val; omega
  | ⟨1, _⟩ => show win0_0.index t (1 : Fin 3) * 512 + 1 * r.val = r.val; omega
  | ⟨2, _⟩ => show win0_0.index t (2 : Fin 3) * 512 + 1 * q.val = q.val; omega

/-- The key row's block. -/
theorem blk1 (c : Dev nD) (t : Fin cfg0.N) (g : Fin 4) (u : Fin 1) (q : Fin 512) :
    iblk m c 1 t (ix3 g u q) = V m c main_v2 (ix3 (entry t g) u q) := by
  obtain ⟨-, ⟨e0, e1, e2⟩, -⟩ := idx_facts t
  show V m c main_v2 (((cfg0.win 1).blk t).view.emb (ix3 g u q)) = V m c main_v2 (ix3 (entry t g) u q)
  refine congrArg _ (funext fun a => Fin.ext ?_)
  match a with
  | ⟨0, _⟩ => show win0_1.index t (0 : Fin 3) * 4 + 1 * g.val = t.val * 4 + g.val; omega
  | ⟨1, _⟩ => show win0_1.index t (1 : Fin 3) * 1 + 1 * u.val = u.val; omega
  | ⟨2, _⟩ => show win0_1.index t (2 : Fin 3) * 512 + 1 * q.val = q.val; omega

/-- The value column's block. -/
theorem blk2 (c : Dev nD) (t : Fin cfg0.N) (g : Fin 4) (r : Fin 512) (u : Fin 1) :
    iblk m c 2 t (ix3 g r u) = V m c main_v3 (ix3 (entry t g) r u) := by
  obtain ⟨-, -, ⟨e0, e1, e2⟩, -⟩ := idx_facts t
  show V m c main_v3 (((cfg0.win 2).blk t).view.emb (ix3 g r u)) = V m c main_v3 (ix3 (entry t g) r u)
  refine congrArg _ (funext fun a => Fin.ext ?_)
  match a with
  | ⟨0, _⟩ => show win0_2.index t (0 : Fin 3) * 4 + 1 * g.val = t.val * 4 + g.val; omega
  | ⟨1, _⟩ => show win0_2.index t (1 : Fin 3) * 512 + 1 * r.val = r.val; omega
  | ⟨2, _⟩ => show win0_2.index t (2 : Fin 3) * 1 + 1 * u.val = u.val; omega

/-- The decay's block. -/
theorem blk3 (c : Dev nD) (t : Fin cfg0.N) (g : Fin 4) (u v : Fin 1) :
    iblk m c 3 t (ix3 g u v) = V m c main_v4 (ix3 (entry t g) u v) := by
  obtain ⟨-, -, -, ⟨e0, e1, e2⟩, -⟩ := idx_facts t
  show V m c main_v4 (((cfg0.win 3).blk t).view.emb (ix3 g u v)) = V m c main_v4 (ix3 (entry t g) u v)
  refine congrArg _ (funext fun a => Fin.ext ?_)
  match a with
  | ⟨0, _⟩ => show win0_3.index t (0 : Fin 3) * 4 + 1 * g.val = t.val * 4 + g.val; omega
  | ⟨1, _⟩ => show win0_3.index t (1 : Fin 3) * 1 + 1 * u.val = u.val; omega
  | ⟨2, _⟩ => show win0_3.index t (2 : Fin 3) * 1 + 1 * v.val = v.val; omega

/-- The step's block. -/
theorem blk4 (c : Dev nD) (t : Fin cfg0.N) (g : Fin 4) (u v : Fin 1) :
    iblk m c 4 t (ix3 g u v) = V m c main_v5 (ix3 (entry t g) u v) := by
  obtain ⟨-, -, -, -, ⟨e0, e1, e2⟩, -⟩ := idx_facts t
  show V m c main_v5 (((cfg0.win 4).blk t).view.emb (ix3 g u v)) = V m c main_v5 (ix3 (entry t g) u v)
  refine congrArg _ (funext fun a => Fin.ext ?_)
  match a with
  | ⟨0, _⟩ => show win0_4.index t (0 : Fin 3) * 4 + 1 * g.val = t.val * 4 + g.val; omega
  | ⟨1, _⟩ => show win0_4.index t (1 : Fin 3) * 1 + 1 * u.val = u.val; omega
  | ⟨2, _⟩ => show win0_4.index t (2 : Fin 3) * 1 + 1 * v.val = v.val; omega

/-- Where entry `(g, r, q)` of point `t`'s output block sits in the output array. -/
theorem emb5 (t : Fin cfg0.N) (g : Fin 4) (r q : Fin 512) :
    ((cfg0.win 5).blk t).view.emb (ix3 g r q) = ix3 (entry t g) r q := by
  obtain ⟨-, -, -, -, -, e0, e1, e2⟩ := idx_facts t
  refine funext fun a => Fin.ext ?_
  match a with
  | ⟨0, _⟩ => show win0_5.index t (0 : Fin 3) * 4 + 1 * g.val = t.val * 4 + g.val; omega
  | ⟨1, _⟩ => show win0_5.index t (1 : Fin 3) * 512 + 1 * r.val = r.val; omega
  | ⟨2, _⟩ => show win0_5.index t (2 : Fin 3) * 512 + 1 * q.val = q.val; omega

/-- The updated stack of the five arrays as the region finds them. -/
abbrev G (c : Dev nD) : (⟨3, ![256, 512, 512]⟩ : Shape).Idx → EReal :=
  stack (V m c main_v0) (V m c main_v2) (V m c main_v3) (V m c main_v4) (V m c main_v5)

/-- What point `t` writes back is block `t` of `G`. -/
theorem flushed_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after0_5]
  unfold out0_5
  rw [View.canon_unit_zero zeros]
  simp only [View.ld_unit_zero (S := S4x512x512) zeros, View.ld_unit_zero (S := S4x1x512) zeros,
    View.ld_unit_zero (S := S4x512x1) zeros, View.ld_unit_zero (S := S4x1x1) zeros]
  refine funext fun (y : S4x512x512.Idx) => ?_
  obtain ⟨g, r, q, rfl⟩ : ∃ (g : Fin 4) (r q : Fin 512), y = ix3 g r q := ⟨y 0, y 1, y 2, eq_ix3 y⟩
  show k0_pay1 (F := Ideal) (iblk m c 0 t) (iblk m c 1 t) (iblk m c 2 t) (iblk m c 3 t) (iblk m c 4 t) (ix3 g r q)
    = G m c (((cfg0.win 5).blk t).view.emb (ix3 g r q))
  rw [emb5]
  exact (pay_of_blocks (V m c main_v0) (V m c main_v2) (V m c main_v3) (V m c main_v4) (V m c main_v5)
    (iblk m c 0 t) (iblk m c 1 t) (iblk m c 2 t) (iblk m c 3 t) (iblk m c 4 t) t
    (blk0 m c t) (blk1 m c t) (blk2 m c t) (blk3 m c t) (blk4 m c t) g r q).trans
    (stack_ix3 (V m c main_v0) (V m c main_v2) (V m c main_v3) (V m c main_v4) (V m c main_v5) (entry t g) r q).symm

/-- An index of the output array is in point `t`'s block iff each coordinate is in the block's range on its axis. -/
theorem mem_blk (t : Fin cfg0.N) (i : S256x512x512.Idx) :
    i ∈ ((cfg0.win 5).blk t).view.set ↔ ∀ a : Fin 3, win0_5.index t a * S4x512x512.size a ≤ (i a).val ∧ (i a).val < win0_5.index t a * S4x512x512.size a + S4x512x512.size a := by
  show i ∈ ((View.whole main_v6).slice (win0_5.rect t)).set ↔ _
  rw [View.set_slice_whole, Rect.mem_set_unit]
  exact Iff.rfl

/-- Stack entry `e` is in the block of point `e / 4`, which is written back. -/
theorem cover (i : S256x512x512.Idx) :
    ∃ t : Fin cfg0.N, (cfg0.win 5).flush t = true ∧ i ∈ ((cfg0.win 5).blk t).view.set := by
  have hi0 : (i 0).val < 256 := (i 0).isLt
  have hi1 : (i 1).val < 512 := (i 1).isLt
  have hi2 : (i 2).val < 512 := (i 2).isLt
  have hN : (i 0).val / 4 < cfg0.N := by show (i 0).val / 4 < 64; omega
  obtain ⟨-, -, -, -, -, e0, e1, e2⟩ := idx_facts ⟨(i 0).val / 4, hN⟩
  have e0' : win0_5.index ⟨(i 0).val / 4, hN⟩ (0 : Fin 3) = (i 0).val / 4 := e0
  refine ⟨⟨(i 0).val / 4, hN⟩, flush0_5 _, ?_⟩
  rw [mem_blk]
  intro a
  match a with
  | ⟨0, _⟩ => show win0_5.index ⟨(i 0).val / 4, hN⟩ (0 : Fin 3) * 4 ≤ (i 0).val ∧ (i 0).val < win0_5.index ⟨(i 0).val / 4, hN⟩ (0 : Fin 3) * 4 + 4; omega
  | ⟨1, _⟩ => show win0_5.index ⟨(i 0).val / 4, hN⟩ (1 : Fin 3) * 512 ≤ (i 1).val ∧ (i 1).val < win0_5.index ⟨(i 0).val / 4, hN⟩ (1 : Fin 3) * 512 + 512; omega
  | ⟨2, _⟩ => show win0_5.index ⟨(i 0).val / 4, hN⟩ (2 : Fin 3) * 512 ≤ (i 2).val ∧ (i 2).val < win0_5.index ⟨(i 0).val / 4, hN⟩ (2 : Fin 3) * 512 + 512; omega

/-- The output array after the run is the updated stack of the arrays as the region finds them. -/
theorem final (c : Dev nD) : (dats m 0 c).arrAt 5 cfg0.N = G m c :=
  (dats m 0 c).arrAt_eq_of_cover 5 (G m c) (fun t _ => flushed_eq m c t) cover

/-- The same, with each array the region finds named by what it is known to hold. -/
theorem final_of (c : Dev nD) (M : (⟨3, ![256, 512, 512]⟩ : Shape).Idx → EReal)
    (Kt : (⟨3, ![256, 1, 512]⟩ : Shape).Idx → EReal) (W : (⟨3, ![256, 512, 1]⟩ : Shape).Idx → EReal)
    (A E : (⟨3, ![256, 1, 1]⟩ : Shape).Idx → EReal)
    (h0 : V m c main_v0 = M) (h1 : V m c main_v2 = Kt) (h2 : V m c main_v3 = W) (h3 : V m c main_v4 = A)
    (h4 : V m c main_v5 = E) : (dats m 0 c).arrAt 5 cfg0.N = stack M Kt W A E := by
  subst h0 h1 h2 h3 h4
  exact final m c

end Cert.KernelIdeal.Blocks

end
-- ==== Proof.Host.lean ====
/-
  The host operations around the region.

  Before the region the program only re-lays its arguments: the state, the value and the two scalars have their two
  leading axes merged; the key has them merged and is then transposed from a column per pair to a row per pair; and the
  merged state is copied into the buffer the region updates in place. So each array the region finds is a cast (for the
  key, a transposed cast) of one argument as launched. After the region one operation splits the leading axis of the
  region's output array again; its result is that cast of what the output array holds when the region ends.
-/
import proofs.«130724_j8589934763_2_alg».proof.Proof.Gen.KernelIdeal.Frame
import Idealize.ShloMosaic.Lib.StableHlo.Run
import Idealize.ShloMosaic.PureOps.Ideal

noncomputable section

namespace Cert.KernelIdeal.Host

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ)

/-- The state the region reads: the state argument with its leading axes merged. -/
theorem entry_state (c : Dev nD) :
    (V m c main_v0 : S256x512x512.Idx → EReal)
      = shapeCast S256x512x512 (m ((c : Thread nD τ).loc main_arg0)) shapeCasts_S16x16x512x512_S256x512x512 := by
  show StableHlo.after hostOps0 (fun b => m (c, b)) (Proc.devRef .tc main_v0) = _
  after_results
  rfl

/-- The key row the region reads: the key argument merged, then transposed. -/
theorem entry_key (c : Dev nD) :
    (V m c main_v2 : S256x1x512.Idx → EReal)
      = transpose S256x1x512 [0, 2, 1]
          (shapeCast S256x512x1 (m ((c : Thread nD τ).loc main_arg1)) shapeCasts_S16x16x512x1_S256x512x1)
          transposes_S256x512x1_S256x1x512_0_2_1 := by
  show StableHlo.after hostOps0 (fun b => m (c, b)) (Proc.devRef .tc main_v2) = _
  after_results
  rfl

/-- The value column the region reads. -/
theorem entry_value (c : Dev nD) :
    (V m c main_v3 : S256x512x1.Idx → EReal)
      = shapeCast S256x512x1 (m ((c : Thread nD τ).loc main_arg2)) shapeCasts_S16x16x512x1_S256x512x1 := by
  show StableHlo.after hostOps0 (fun b => m (c, b)) (Proc.devRef .tc main_v3) = _
  after_results
  rfl

/-- The decay the region reads. -/
theorem entry_decay (c : Dev nD) :
    (V m c main_v4 : S256x1x1.Idx → EReal)
      = shapeCast S256x1x1 (m ((c : Thread nD τ).loc main_arg3)) shapeCasts_S16x16x1x1_S256x1x1 := by
  show StableHlo.after hostOps0 (fun b => m (c, b)) (Proc.devRef .tc main_v4) = _
  after_results
  rfl

/-- The step the region reads. -/
theorem entry_step (c : Dev nD) :
    (V m c main_v5 : S256x1x1.Idx → EReal)
      = shapeCast S256x1x1 (m ((c : Thread nD τ).loc main_arg4)) shapeCasts_S16x16x1x1_S256x1x1 := by
  show StableHlo.after hostOps0 (fun b => m (c, b)) (Proc.devRef .tc main_v5) = _
  after_results
  rfl

/-- The program's result: the region's output array with its leading axis split. -/
theorem result_split (c : Dev nD) :
    (Pipeline.afterTail₀ cfgs (dats m) 0 (V0 m) [hostOps1] c main_v7 : S16x16x512x512.Idx → EReal)
      = shapeCast S16x16x512x512 ((dats m 0 c).arrAt 5 cfg0.N) shapeCasts_S256x512x512_S16x16x512x512 := by
  unfold Pipeline.afterTail₀
  show StableHlo.after hostOps1 _ (Proc.devRef .tc main_v7) = _
  after_results
  refine congrArg (fun X => shapeCast S16x16x512x512 X shapeCasts_S256x512x512_S16x16x512x512) ?_
  exact Pipeline.withArrays_arr spec0 launch0.win.arr_inj c _ _ 5

end Cert.KernelIdeal.Host

end
-- ==== Proof.Bridge.lean ====
/-
  The two layouts of the update agree.

  Merge the two leading axes of every argument — pair (b, h) becomes stack entry g = b·16 + h —, turn the key column of each
  pair into a row, update the stack, and split the leading axis of the result again. At (b, h, r, q) the split result reads
  the stack's update at (g, r, q); there the merged state reads the state at (b, h, r, ·), the merged value at (b, h, r, 0),
  the merged scalars at (b, h, 0, 0), and the key row at (g, 0, j) is the merged key column at (g, j, 0), the key at
  (b, h, j, 0). Every entry that `stackAt` reads is therefore the entry `gridAt` reads, inside the sum and outside it,
  and the two are the same expression.
-/
import Idealize.ShloMosaic.Lib.ValueLayout
import proofs.«130724_j8589934763_2_alg».proof.Proof.LibStack
import proofs.«130724_j8589934763_2_alg».proof.Proof.Spec

noncomputable section

namespace Cert.Update

open Idealize.ShloMosaic Idealize.ShloMosaic.ValueIdx Cert.LibStack

/-- Stack entry `b·16 + h` holds pair `(b, h)`. -/
def pair (b h : Fin 16) : Fin 256 := ⟨b.val * 16 + h.val, by omega⟩

theorem pair_val (b h : Fin 16) : (pair b h).val = b.val * 16 + h.val := rfl

/-- Splitting the updated stack of the merged arguments gives the update of the arguments. -/
theorem split_stack_merge (M : (⟨4, ![16, 16, 512, 512]⟩ : Shape).Idx → EReal)
    (K V : (⟨4, ![16, 16, 512, 1]⟩ : Shape).Idx → EReal) (A E : (⟨4, ![16, 16, 1, 1]⟩ : Shape).Idx → EReal)
    (hM : (⟨4, ![16, 16, 512, 512]⟩ : Shape).ShapeCasts ⟨3, ![256, 512, 512]⟩)
    (hK : (⟨4, ![16, 16, 512, 1]⟩ : Shape).ShapeCasts ⟨3, ![256, 512, 1]⟩)
    (hT : (⟨3, ![256, 512, 1]⟩ : Shape).Transposes [0, 2, 1] ⟨3, ![256, 1, 512]⟩)
    (hA : (⟨4, ![16, 16, 1, 1]⟩ : Shape).ShapeCasts ⟨3, ![256, 1, 1]⟩)
    (hO : (⟨3, ![256, 512, 512]⟩ : Shape).ShapeCasts ⟨4, ![16, 16, 512, 512]⟩) :
    shapeCast ⟨4, ![16, 16, 512, 512]⟩
        (stack (shapeCast ⟨3, ![256, 512, 512]⟩ M hM)
          (transpose ⟨3, ![256, 1, 512]⟩ [0, 2, 1] (shapeCast ⟨3, ![256, 512, 1]⟩ K hK) hT)
          (shapeCast ⟨3, ![256, 512, 1]⟩ V hK) (shapeCast ⟨3, ![256, 1, 1]⟩ A hA) (shapeCast ⟨3, ![256, 1, 1]⟩ E hA)) hO
      = grid M K V A E := by
  funext i
  obtain ⟨b, h, r, q, rfl⟩ : ∃ (b h : Fin 16) (r q : Fin 512), i = ix4 b h r q := ⟨i 0, i 1, i 2, i 3, eq_ix4 i⟩
  rw [grid_ix4, shapeCast_nab_pqab_apply _ hO (pair b h) b h (pair_val b h) r q, stack_ix3]
  unfold stackAt gridAt
  simp only [shapeCast_pqab_nab_apply M hM (pair b h) b h (pair_val b h),
    shapeCast_pqab_nab_apply V hK (pair b h) b h (pair_val b h),
    shapeCast_pqab_nab_apply A hA (pair b h) b h (pair_val b h),
    shapeCast_pqab_nab_apply E hA (pair b h) b h (pair_val b h),
    transpose_ix3_021_apply (shapeCast ⟨3, ![256, 512, 1]⟩ K hK) hT (pair b h) (0 : Fin 1),
    shapeCast_pqab_nab_apply K hK (pair b h) b h (pair_val b h)]

end Cert.Update

end
-- ==== Proof.Whole.lean ====
/-
  The kernel program's result is the update of its arguments.

  The program's result is the split of the region's output array; that array is the updated stack of the arrays the
  region finds; those are the merged arguments, the key also transposed; and splitting the updated stack of the merged
  arguments is the update of the arguments in their own layout. Chained, the result buffer after every execution holds
  `grid` of the arguments as launched, and the arguments are as launched.
-/
import proofs.«130724_j8589934763_2_alg».proof.Proof.Blocks
import proofs.«130724_j8589934763_2_alg».proof.Proof.Host
import proofs.«130724_j8589934763_2_alg».proof.Proof.Bridge

noncomputable section

namespace Cert.KernelIdeal.Whole

open Idealize.ShloMosaic Idealize.ShloMosaic.TcCoe Idealize.SL.Sem
open Cert.KernelIdeal Cert.KernelIdeal.Gen Cert.Update

variable (m : (ℓ : Loc nD τ sig) → Buf (Elt Ideal) ℓ) (ρ : Dev nD → PrngReg)

/-- What the lines after the region leave in the result buffer. -/
theorem result_eq (c : Dev nD) :
    (Pipeline.afterTail₀ cfgs (dats m) 0 (V0 m) [hostOps1] c main_v7 : S16x16x512x512.Idx → EReal)
      = grid (m ((c : Thread nD τ).loc main_arg0)) (m ((c : Thread nD τ).loc main_arg1))
          (m ((c : Thread nD τ).loc main_arg2)) (m ((c : Thread nD τ).loc main_arg3))
          (m ((c : Thread nD τ).loc main_arg4)) :=
  (Host.result_split m c).trans
    ((congrArg (fun X => shapeCast S16x16x512x512 X shapeCasts_S256x512x512_S16x16x512x512)
        (Blocks.final_of m c _ _ _ _ _ (Host.entry_state m c) (Host.entry_key m c) (Host.entry_value m c)
          (Host.entry_decay m c) (Host.entry_step m c))).trans
      (split_stack_merge _ _ _ _ _ _ _ _ _ _))

/-- Every weakly fair execution of the kernel program ends with the result at the update of the arguments and the
    arguments unchanged. -/
theorem run : θ_run defs (onTc (τ := τ) (main (F := Ideal))) ⟨m, fun _ => 0, ρ⟩ (fun r => ∀ c : Dev nD,
      r.2.mem ((c.tc : Thread nD τ).loc main_v7)
        = grid (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
      ⟨((h c).2 main_v7 (Pipeline.mem_restRefs_of main_v7 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Whole

end
-- ==== Proof.RefSide.lean ====
/-
  The reference computes the update.

  The reference forms the prediction as a batched matrix–vector product (a contraction over the state's last axis against
  the key's row axis), subtracts the value, spreads the error column over the columns and the transposed key over the
  rows, multiplies, scales by the step and adds the decayed state. Read at an index (b, h, r, q) one operation at a time,
  every operand is read at the same pair (b, h): the state at (r, q) and, inside the sum, at (r, k); the key at (k, 0)
  inside the sum and at (q, 0) in the rank-one term (the transposed key at (0, q) is the key at (q, 0)); the value at
  (r, 0); the scalars at (0, 0). That is `gridAt`, term for term.
-/
import proofs.«130724_j8589934763_2_alg».proof.Proof.Gen.ReferenceIdeal.Read
import proofs.«130724_j8589934763_2_alg».proof.Proof.Spec

noncomputable section

namespace Cert.ReferenceIdeal.RefValue

open Idealize.ShloMosaic Idealize.ShloMosaic.ValueIdx Cert.ReferenceIdeal Cert.ReferenceIdeal.Read Cert.Update

theorem idx6 (b h : Fin 16) (r q : Fin 512) : idx_main_v6 (ix4 b h r q) = ix4 b h (0 : Fin 1) (0 : Fin 1) :=
  funext fun a => Fin.ext (by match a with | ⟨0, _⟩ => rfl | ⟨1, _⟩ => rfl | ⟨2, _⟩ => rfl | ⟨3, _⟩ => rfl)
theorem idx8 (b h : Fin 16) (r q : Fin 512) : idx_main_v8 (ix4 b h r q) = ix4 b h (0 : Fin 1) (0 : Fin 1) :=
  funext fun a => Fin.ext (by match a with | ⟨0, _⟩ => rfl | ⟨1, _⟩ => rfl | ⟨2, _⟩ => rfl | ⟨3, _⟩ => rfl)
theorem idx3 (b h : Fin 16) (r q : Fin 512) : idx_main_v3 (ix4 b h r q) = ix4 b h r (0 : Fin 1) :=
  funext fun a => Fin.ext (by match a with | ⟨0, _⟩ => rfl | ⟨1, _⟩ => rfl | ⟨2, _⟩ => rfl | ⟨3, _⟩ => rfl)
theorem idx4 (b h : Fin 16) (r q : Fin 512) : idx_main_v4 (ix4 b h r q) = ix4 b h (0 : Fin 1) q :=
  funext fun a => Fin.ext (by match a with | ⟨0, _⟩ => rfl | ⟨1, _⟩ => rfl | ⟨2, _⟩ => rfl | ⟨3, _⟩ => rfl)
theorem idx2 (b h : Fin 16) (u : Fin 1) (q : Fin 512) : idx_main_v2 (ix4 b h u q) = ix4 b h q u :=
  funext fun a => Fin.ext (by match a with | ⟨0, _⟩ => rfl | ⟨1, _⟩ => rfl | ⟨2, _⟩ => rfl | ⟨3, _⟩ => rfl)
theorem lidx0 (b h : Fin 16) (r : Fin 512) (u : Fin 1) (k : Fin 512) : lidx_main_v0 (ix4 b h r u) k = ix4 b h r k :=
  funext fun a => Fin.ext (by match a with | ⟨0, _⟩ => rfl | ⟨1, _⟩ => rfl | ⟨2, _⟩ => rfl | ⟨3, _⟩ => rfl)
theorem ridx0 (b h : Fin 16) (r : Fin 512) (u : Fin 1) (k : Fin 512) : ridx_main_v0 (ix4 b h r u) k = ix4 b h k u :=
  funext fun a => Fin.ext (by match a with | ⟨0, _⟩ => rfl | ⟨1, _⟩ => rfl | ⟨2, _⟩ => rfl | ⟨3, _⟩ => rfl)

/-- The reference's result, as the generated stages compose it, is the update of the arguments. -/
theorem result_eq (x0 : (⟨S16x16x512x512, .f32⟩ : BufTy).Contents (Elt Ideal))
    (x1 x2 : (⟨S16x16x512x1, .f32⟩ : BufTy).Contents (Elt Ideal))
    (x3 x4 : (⟨S16x16x1x1, .f32⟩ : BufTy).Contents (Elt Ideal)) :
    val_main_v10 (F := Ideal) x0 x1 x2 x3 x4 = grid x0 x1 x2 x3 x4 := by
  funext i
  obtain ⟨b, h, r, q, rfl⟩ : ∃ (b h : Fin 16) (r q : Fin 512), i = ix4 b h r q := ⟨i 0, i 1, i 2, i 3, eq_ix4 i⟩
  rw [grid_ix4, val_main_v10_apply, val_main_v7_apply, val_main_v6_apply, val_main_v9_apply, val_main_v8_apply,
    val_main_v5_apply, val_main_v3_apply, val_main_v1_apply, val_main_v0_apply, val_main_v4_apply, val_main_v2_apply]
  simp only [idx6, idx8, idx3, idx4, idx2, lidx0, ridx0]
  rfl

end Cert.ReferenceIdeal.RefValue

end
-- ==== Proof.lean ====
/-
  The kernel and its reference compute the same fast-weight update.

  For every (batch, head) pair the state M (512 × 512), key k, value v, decay α and step η give

      M'[r, q] = M[r, q] · α + η · ( ((∑ₖ M[r, k] · k[k]) − v[r]) · k[q] ).

  The reference forms the sum as a batched matrix–vector product and the rank-one term by broadcasting the error column
  against the transposed key. The kernel merges the two leading axes, turns each key column into a row, and on each of 64
  grid points updates four pairs at once: the row sum is a lane reduction of the state times the spread key row. Both are
  this one expression on the extended reals, entry by entry, with the same grouping of every product; only the layout
  differs. So no algebraic law is used beyond reading each operation at an index, and the finiteness of the inputs is
  never needed.

  The pieces: `Cert.Update` states the update in both layouts and that they agree under the merge of the leading axes;
  `Cert.KernelIdeal.Body` reads the body's stored value at an index; `Cert.KernelIdeal.Blocks` passes from the blocks the
  points write to the whole output array; `Cert.KernelIdeal.Host` reads the host operations around the region;
  `Cert.KernelIdeal.Whole` chains them into the kernel program's run; `Cert.ReferenceIdeal.RefValue` reads the reference.
  The kernel program is idealized without any rewrite, so that conjunct is trivial; the three frames are the runs with the
  result dropped.
-/
import proofs.«130724_j8589934763_2_alg».proof.Defs
import proofs.«130724_j8589934763_2_alg».proof.Proof.Gen.Kernel
import proofs.«130724_j8589934763_2_alg».proof.Proof.Gen.Kernel.Skeleton
import proofs.«130724_j8589934763_2_alg».proof.Proof.Gen.Kernel.Launch
import proofs.«130724_j8589934763_2_alg».proof.Proof.Gen.Kernel.Points
import proofs.«130724_j8589934763_2_alg».proof.Proof.Gen.Kernel.Frame
import proofs.«130724_j8589934763_2_alg».proof.Proof.Gen.KernelIdeal
import proofs.«130724_j8589934763_2_alg».proof.Proof.Gen.KernelIdeal.Skeleton
import proofs.«130724_j8589934763_2_alg».proof.Proof.Gen.KernelIdeal.Launch
import proofs.«130724_j8589934763_2_alg».proof.Proof.Gen.KernelIdeal.Points
import proofs.«130724_j8589934763_2_alg».proof.Proof.Gen.KernelIdeal.Frame
import proofs.«130724_j8589934763_2_alg».proof.Proof.Gen.ReferenceIdeal
import proofs.«130724_j8589934763_2_alg».proof.Proof.Gen.ReferenceIdeal.Run
import proofs.«130724_j8589934763_2_alg».proof.Proof.Gen.ReferenceIdeal.Read
import proofs.«130724_j8589934763_2_alg».proof.Proof.Gen.Pre_finite_inputs
import Idealize.ShloMosaic.Adequacy
import Idealize.ShloMosaic.Init
import proofs.«130724_j8589934763_2_alg».proof.Proof.Whole
import proofs.«130724_j8589934763_2_alg».proof.Proof.RefSide

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, both programs end with the result at the update of the arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
